-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 61
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x128, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .bf16⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .hbm, ⟨122, _⟩ => ⟨S_, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with the result array named.

  @main is eight segments in order — host stretches and the three regions. Every weakly fair execution runs them one
  after another without a fault, and after the last one every unscoped buffer holds the contents `W8` of the last
  boundary: in particular the result `main_v42` ends at `W8 … main_v42`, and each argument as it was launched.
-/
import proofs.«118110_j45586782880364_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the arguments as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.RegionValues.lean ====
/-
  What each of the three kernels leaves in its output array, as ONE function of the arrays the region finds.

  Every region runs over the same grid: twenty points, point `t` working on rows `5000·t … 5000·t + 4999` of the
  node axis; the weights and the bias row are one block, the same at every point. So an output row `P = 5000·t + p`
  is written by point `t` alone, from row `P` of the row-blocked inputs, and the twenty blocks tile the array.

  * region 0:  out (P, q) = (∑ₖ x (P, k) · w (k, q)) · d (P)
  * region 1:  h (P, k) = max (a (P, k) · d (P) + b (k)) 0,   out (P, q) = (∑ₖ h (P, k) · w (k, q)) · d (P)
  * region 2:  out (P, q) = max (a (P, q) · d (P) + b (q)) 0

  (a change of float format is the identity on the extended reals, and a matrix product into a zero accumulator is the
  plain sum over the contracted index).
-/
import proofs.«118110_j45586782880364_2_alg».proof.Proof.Gen.KernelIdeal.Frame
import proofs.«118110_j45586782880364_2_alg».proof.Proof.LibPlainDot
import proofs.«118110_j45586782880364_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-! ## The bodies' arithmetic at an entry of a block -/

theorem pay0_apply (x0 : FVec Ideal S5000x128 .f32) (x1 : FVec Ideal S128x128 .f32) (x2 : FVec Ideal S5000x1 .f32)
    (p : Fin 5000) (q : Fin 128) :
    (show EReal from k0_pay1 (F := Ideal) x0 x1 x2 (ix2 p q)) = (∑ k : Fin 128, x0 (ix2 p k) * x1 (ix2 k q)) * x2 (ix2 p (0 : Fin 1)) := by
  unfold k0_pay1
  refine congrArg₂ (fun a b : EReal => a * b) ?_ ?_
  · exact Cert.Lib.PlainDot.matmul_zero_apply dot_S5000x128_S128x128_S5000x128_1_0_0_1_n_n rfl none _ _ p q
  · exact (Cert.GraphConv.broadcastTo_a1_ab_apply _ _ p q).trans (congrFun (shapeCast_self x2 _) _)

/-- The hidden activation of one row entry: the aggregate scaled by the node's factor, the bias added, clipped at zero. -/
def hid (a d b : EReal) : EReal := max (a * d + b) (Ideal.ofBits .f32 0x00000000#32)

theorem pay2_apply (x0 : FVec Ideal S5000x128 .f32) (x2 : FVec Ideal S5000x1 .f32) (x6 : FVec Ideal S1x128 .f32)
    (p : Fin 5000) (q : Fin 128) :
    (show EReal from k2_pay1 (F := Ideal) x0 x2 x6 (ix2 p q)) = hid (x0 (ix2 p q)) (x2 (ix2 p (0 : Fin 1))) (x6 (ix2 (0 : Fin 1) q)) := by
  unfold k2_pay1 hid
  refine congrArg₂ (fun a b : EReal => max a b) ?_ rfl
  refine congrArg₂ (fun a b : EReal => a + b) (congrArg₂ (fun a b : EReal => a * b) ?_ ?_) ?_
  · exact congrFun (shapeCast_self x0 _) _
  · exact (Cert.GraphConv.broadcastTo_a1_ab_apply _ _ p q).trans (congrFun (shapeCast_self x2 _) _)
  · exact (broadcastTo_1b_ab_apply _ _ p q).trans (congrFun (shapeCast_self x6 _) _)

theorem pay1_apply (x0 : FVec Ideal S5000x128 .f32) (x2 : FVec Ideal S5000x1 .f32) (x6 : FVec Ideal S1x128 .f32)
    (x13 : FVec Ideal S128x128 .f32) (p : Fin 5000) (q : Fin 128) :
    (show EReal from k1_pay1 (F := Ideal) x0 x2 x6 x13 x2 (ix2 p q))
      = (∑ k : Fin 128, hid (x0 (ix2 p k)) (x2 (ix2 p (0 : Fin 1))) (x6 (ix2 (0 : Fin 1) k)) * x13 (ix2 k q))
          * x2 (ix2 p (0 : Fin 1)) := by
  unfold k1_pay1
  refine congrArg₂ (fun a b : EReal => a * b) ?_ ?_
  · refine (Cert.Lib.PlainDot.matmul_zero_apply dot_S5000x128_S128x128_S5000x128_1_0_0_1_n_n rfl none _ _ p q).trans ?_
    refine Finset.sum_congr rfl fun k _ => congrArg₂ (fun a b : EReal => a * b) ?_ rfl
    unfold hid
    refine congrArg₂ (fun a b : EReal => max a b) ?_ rfl
    refine congrArg₂ (fun a b : EReal => a + b) (congrArg₂ (fun a b : EReal => a * b) ?_ ?_) ?_
    · exact congrFun (shapeCast_self x0 _) _
    · exact (Cert.GraphConv.broadcastTo_a1_ab_apply _ _ p k).trans (congrFun (shapeCast_self x2 _) _)
    · exact (broadcastTo_1b_ab_apply _ _ p k).trans (congrFun (shapeCast_self x6 _) _)
  · exact (Cert.GraphConv.broadcastTo_a1_ab_apply _ _ p q).trans (congrFun (shapeCast_self x2 _) _)

/-! ## The three whole-array functions -/

/-- An array over `[100000, 128]` from a function of its two coordinates. -/
def arr2 (g : Fin 100000 → Fin 128 → EReal) : S100000x128.Idx → EReal :=
  fun i => g ⟨(i 0).val, idx2_lt0 i⟩ ⟨(i 1).val, idx2_lt1 i⟩

theorem arr2_apply (g : Fin 100000 → Fin 128 → EReal) (P : Fin 100000) (q : Fin 128) : arr2 g (ix2 P q) = g P q := rfl

def g0 (x : S100000x128.Idx → EReal) (w : S128x128.Idx → EReal) (d : S100000x1.Idx → EReal) (P : Fin 100000) (q : Fin 128) : EReal :=
  (∑ k : Fin 128, x (ix2 P k) * w (ix2 k q)) * d (ix2 P (0 : Fin 1))

def g1 (a : S100000x128.Idx → EReal) (b : S1x128.Idx → EReal) (d : S100000x1.Idx → EReal) (w : S128x128.Idx → EReal)
    (P : Fin 100000) (q : Fin 128) : EReal :=
  (∑ k : Fin 128, hid (a (ix2 P k)) (d (ix2 P (0 : Fin 1))) (b (ix2 (0 : Fin 1) k)) * w (ix2 k q)) * d (ix2 P (0 : Fin 1))

def g2 (a : S100000x128.Idx → EReal) (b : S1x128.Idx → EReal) (d : S100000x1.Idx → EReal) (P : Fin 100000) (q : Fin 128) : EReal :=
  hid (a (ix2 P q)) (d (ix2 P (0 : Fin 1))) (b (ix2 (0 : Fin 1) q))

/-- Row `p` of point `t`'s block is row `5000·t + p` of the array. -/
def rowPt (t : Fin 20) (p : Fin 5000) : Fin 100000 := ⟨t.val * 5000 + p.val, by have := t.isLt; have := p.isLt; omega⟩

/-! ## Region 0 -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem flushed0_eq (c : Dev nD) (t : Fin cfg0.N) :
    (dat0 V c).flushed 3 t
      = ((cfg0.win 3).blk t).view.read (Elt Ideal) (arr2 (g0 (V c main_arg0) (V c main_arg2) (V c main_v15))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  have hx : ∀ k : Fin 128, iblk0 V c 0 t (ix2 p k) = V c main_arg0 (ix2 (rowPt t p) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : ∀ k : Fin 128, iblk0 V c 1 t (ix2 k q) = V c main_arg2 (ix2 k q) := fun k => by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hd : iblk0 V c 2 t (ix2 p (0 : Fin 1)) = V c main_v15 (ix2 (rowPt t p) (0 : Fin 1)) := by
    show V c main_v15 (((cfg0.win 2).blk t).view.emb (ix2 p (0 : Fin 1))) = _
    refine congrArg (V c main_v15) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have ho : ((cfg0.win 3).blk t).view.emb (ix2 p q) = ix2 (rowPt t p) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
    = arr2 (g0 (V c main_arg0) (V c main_arg2) (V c main_v15)) (((cfg0.win 3).blk t).view.emb (ix2 p q))
  rw [ho, arr2_apply]
  refine (pay0_apply (iblk0 V c 0 t) (iblk0 V c 1 t) (iblk0 V c 2 t) p q).trans ?_
  unfold g0
  rw [hd]
  refine congrArg (· * V c main_v15 (ix2 (rowPt t p) (0 : Fin 1))) ?_
  exact Finset.sum_congr rfl fun k _ => by rw [hx k, hw k]

theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row `P` lies in the block of point `P / 5000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := by show (i 0).val / 5000 < 20; omega
  obtain ⟨_, _, _, _, _, _, e30, e31⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

/-- REGION 0's output array after the region, from the arrays it finds. -/
theorem final0 (c : Dev nD) :
    (dat0 V c).arrAt 3 cfg0.N = arr2 (g0 (V c main_arg0) (V c main_arg2) (V c main_v15)) :=
  (dat0 V c).arrAt_eq_of_cover 3 _ (fun t _ => flushed0_eq V c t) cover0

/-! ## Region 1 -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem flushed1_eq (c : Dev nD) (t : Fin cfg1.N) :
    (dat1 V c).flushed 4 t
      = ((cfg1.win 4).blk t).view.read (Elt Ideal) (arr2 (g1 (V c main_v27) (V c main_v28) (V c main_v15) (V c main_arg4))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨e00, e01, e10, e11, e20, e21, e30, e31, e40, e41⟩ := idx_facts1 t
  funext j
  obtain ⟨p, q, rfl⟩ : ∃ (p : Fin 5000) (q : Fin 128), j = ix2 p q := ⟨j 0, j 1, eq_ix2 j⟩
  have ha : ∀ k : Fin 128, iblk1 V c 0 t (ix2 p k) = V c main_v27 (ix2 (rowPt t p) k) := fun k => by
    show V c main_v27 (((cfg1.win 0).blk t).view.emb (ix2 p k)) = _
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have hb : ∀ k : Fin 128, iblk1 V c 1 t (ix2 (0 : Fin 1) k) = V c main_v28 (ix2 (0 : Fin 1) k) := fun k => by
    show V c main_v28 (((cfg1.win 1).blk t).view.emb (ix2 (0 : Fin 1) k)) = _
    refine congrArg (V c main_v28) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have hd : iblk1 V c 2 t (ix2 p (0 : Fin 1)) = V c main_v15 (ix2 (rowPt t p) (0 : Fin 1)) := by
    show V c main_v15 (((cfg1.win 2).blk t).view.emb (ix2 p (0 : Fin 1))) = _
    refine congrArg (V c main_v15) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have hw : ∀ k : Fin 128, iblk1 V c 3 t (ix2 k q) = V c main_arg4 (ix2 k q) := fun k => by
    show V c main_arg4 (((cfg1.win 3).blk t).view.emb (ix2 k q)) = _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have ho : ((cfg1.win 4).blk t).view.emb (ix2 p q) = ix2 (rowPt t p) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show k1_pay1 (iblk1 V c 0 t) (iblk1 V c 2 t) (iblk1 V c 1 t) (iblk1 V c 3 t) (iblk1 V c 2 t) (ix2 p q)
    = arr2 (g1 (V c main_v27) (V c main_v28) (V c main_v15) (V c main_arg4)) (((cfg1.win 4).blk t).view.emb (ix2 p q))
  rw [ho, arr2_apply]
  refine (pay1_apply (iblk1 V c 0 t) (iblk1 V c 2 t) (iblk1 V c 1 t) (iblk1 V c 3 t) p q).trans ?_
  unfold g1
  rw [hd]
  refine congrArg (· * V c main_v15 (ix2 (rowPt t p) (0 : Fin 1))) ?_
  exact Finset.sum_congr rfl fun k _ => by rw [ha k, hb k, hw k]

theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 5000 < cfg1.N := by show (i 0).val / 5000 < 20; omega
  obtain ⟨_, _, _, _, _, _, _, _, e40, e41⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    rw [e41]; omega

/-- REGION 1's output array after the region, from the arrays it finds. -/
theorem final1 (c : Dev nD) :
    (dat1 V c).arrAt 4 cfg1.N = arr2 (g1 (V c main_v27) (V c main_v28) (V c main_v15) (V c main_arg4)) :=
  (dat1 V c).arrAt_eq_of_cover 4 _ (fun t _ => flushed1_eq V c t) cover1

/-! ## Region 2 -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 V c).flushed 3 t
      = ((cfg2.win 3).blk t).view.read (Elt Ideal) (arr2 (g2 (V c main_v40) (V c main_v41) (V c main_v15))) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx_facts2 t
  funext j
  obtain ⟨p, q, rfl⟩ : ∃ (p : Fin 5000) (q : Fin 128), j = ix2 p q := ⟨j 0, j 1, eq_ix2 j⟩
  have ha : iblk2 V c 0 t (ix2 p q) = V c main_v40 (ix2 (rowPt t p) q) := by
    show V c main_v40 (((cfg2.win 0).blk t).view.emb (ix2 p q)) = _
    refine congrArg (V c main_v40) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have hb : iblk2 V c 1 t (ix2 (0 : Fin 1) q) = V c main_v41 (ix2 (0 : Fin 1) q) := by
    show V c main_v41 (((cfg2.win 1).blk t).view.emb (ix2 (0 : Fin 1) q)) = _
    refine congrArg (V c main_v41) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  have hd : iblk2 V c 2 t (ix2 p (0 : Fin 1)) = V c main_v15 (ix2 (rowPt t p) (0 : Fin 1)) := by
    show V c main_v15 (((cfg2.win 2).blk t).view.emb (ix2 p (0 : Fin 1))) = _
    refine congrArg (V c main_v15) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  have ho : ((cfg2.win 3).blk t).view.emb (ix2 p q) = ix2 (rowPt t p) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 2 t) (iblk2 V c 1 t) (ix2 p q)
    = arr2 (g2 (V c main_v40) (V c main_v41) (V c main_v15)) (((cfg2.win 3).blk t).view.emb (ix2 p q))
  rw [ho, arr2_apply]
  refine (pay2_apply (iblk2 V c 0 t) (iblk2 V c 2 t) (iblk2 V c 1 t) p q).trans ?_
  unfold g2
  rw [ha, hb, hd]

theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v42).slice (win2_3.rect t)).set ↔ _
  rw [View.set_slice_whole, Rect.mem_set_unit]
  exact Iff.rfl

theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 5000 < cfg2.N := by show (i 0).val / 5000 < 20; omega
  obtain ⟨_, _, _, _, _, _, e30, e31⟩ := idx_facts2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val ∧ (i 1).val < win2_3.index ⟨(i 0).val / 5000, hlt⟩ (1 : Fin 2) * 128 + 128
    rw [e31]; omega

/-- REGION 2's output array after the region, from the arrays it finds. -/
theorem final2 (c : Dev nD) :
    (dat2 V c).arrAt 3 cfg2.N = arr2 (g2 (V c main_v40) (V c main_v41) (V c main_v15)) :=
  (dat2 V c).arrAt_eq_of_cover 3 _ (fun t _ => flushed2_eq V c t) cover2

end Cert.KernelIdeal.RegionValue

end
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.LibGatherRows.lean ====
/-
  Rows of a table taken by a column of integer ids, read at an index.

  `table[ids]` for a table `[N, D]` (or a flat array `[N]`) and ids given as an `[E, 1]` column lowers to a
  `stablehlo.gather` whose start index names the table's row axis, which is collapsed; a slice is one whole row
  (one element). StableHLO clamps every start index into the operand, so entry `e` of the result is the table's
  row `min (max id 0) (N − 1)`, where `id` is the id word of `e` read as a signed integer. Both shapes read
  the SAME row, `rowAt`, which is what lets a proof move a factor gathered from a flat array next to a row gathered
  from a table.
-/
import Idealize.ShloMosaic.Lib.ValueIdx

noncomputable section

namespace Cert.Lib.GatherRows

open Idealize.ShloMosaic Idealize.ShloMosaic.ValueIdx

/-- The row an id names: entry `e`'s id word read signed, negative ids taken to row 0, ids past the end to the last row. -/
def rowAt {E w : Nat} (N : Nat) (hN : 0 < N) (ids : IVec ⟨2, ![E, 1]⟩ w) (e : Fin E) : Fin N :=
  ⟨min (ids (ix2 e (0 : Fin 1))).toInt.toNat (N - 1), by omega⟩

/-- An id that is, read signed, a row number below `N` names that row. -/
theorem rowAt_of_toInt {E w N : Nat} (hN : 0 < N) (ids : IVec ⟨2, ![E, 1]⟩ w) (e : Fin E) (r : Fin N)
    (h : (ids (ix2 e (0 : Fin 1))).toInt = (r.val : Int)) : rowAt N hN ids e = r := by
  refine Fin.ext ?_
  show min (ids (ix2 e (0 : Fin 1))).toInt.toNat (N - 1) = r.val
  rw [h]
  have := r.isLt
  omega

section Rows
variable {α : Type}

/-- The dimension numbers of `table[ids]` for a table `[N, D]`, ids `[E, 1]` and a result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ENTRY (e, q) of the gathered rows: the table at the row `e`'s id names, column `q`. -/
theorem rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (ids : IVec ⟨2, ![E, 1]⟩ w) (e : Fin E) (q : Fin D) :
    Host.gather (rowsDims N D E wf) x ids (ix2 e q) = x (ix2 (rowAt N hN ids e) q) := by
  unfold Host.gather
  congr 1
  funext a
  refine Fin.ext ?_
  match a with
  | ⟨0, _⟩ =>
    show (rowsDims N D E wf).start (ix2 e q) ids 0 + (rowsDims N D E wf).batchCoord (ix2 e q) 0
      + (rowsDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e q) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e q) ids 1 + (rowsDims N D E wf).batchCoord (ix2 e q) 1
      + (rowsDims N D E wf).offCoord (ix2 e q) 1 = q.val
    have hs : (rowsDims N D E wf).start (ix2 e q) ids 1 = 0 := by
      unfold GatherDims.start
      rw [dif_neg (show (1 : Fin 2) ∉ (rowsDims N D E wf).startIndexMap from
        fun h => absurd (List.mem_singleton.mp h) (Fin.ne_of_val_ne Nat.one_ne_zero))]
    have hk : (1 : Fin 2) ∈ (rowsDims N D E wf).sKept :=
      (GatherDims.mem_sKept _ _).mpr ⟨fun h => absurd (List.mem_singleton.mp h) (Fin.ne_of_val_ne Nat.one_ne_zero), List.not_mem_nil⟩
    rw [hs, GatherDims.batchCoord_eq_zero _ _ _ List.not_mem_nil]
    simp only [Nat.zero_add, Nat.add_zero]
    unfold GatherDims.offCoord
    rw [dif_pos hk]
    rfl

/-- The same for the host operation as a program prints it, with the program's own record of these dimension numbers. -/
theorem rows_apply_host {N D E w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowsDims N D E wf)
    (x : (⟨2, ![N, D]⟩ : Shape).Idx → α) (ids : IVec ⟨2, ![E, 1]⟩ w) (e : Fin E) (q : Fin D) :
    Host.gather d x ids (ix2 e q) = x (ix2 (rowAt N hN ids e) q) := by
  subst hd
  exact rows_apply hN wf x ids e q

end Rows

section Flat
variable {α : Type}

/-- The dimension numbers of `x[ids]` for a flat array `[N]`, ids `[E, 1]` and a result `[E]`. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ENTRY e of the gathered elements: the array at the element `e`'s id names. -/
theorem flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (ids : IVec ⟨2, ![E, 1]⟩ w) (e : Fin E) :
    Host.gather (flatDims N E wf) x ids (ix1 e) = x (ix1 (rowAt N hN ids e)) := by
  unfold Host.gather
  congr 1
  funext a
  obtain rfl : a = 0 := Subsingleton.elim _ _
  refine Fin.ext ?_
  show (flatDims N E wf).start (ix1 e) ids 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for the host operation as a program prints it. -/
theorem flat_apply_host {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = flatDims N E wf)
    (x : (⟨1, ![N]⟩ : Shape).Idx → α) (ids : IVec ⟨2, ![E, 1]⟩ w) (e : Fin E) :
    Host.gather d x ids (ix1 e) = x (ix1 (rowAt N hN ids e)) := by
  subst hd
  exact flat_apply hN wf x ids e

end Flat

end Cert.Lib.GatherRows

end
-- ==== Proof.GraphLaw.lean ====
/-
  One graph-convolution layer written two ways, and the law that joins them.

  A layer takes node features `X` (one row per node), weights `W`, a bias `b`, a per-node factor `dv` (the inverse
  square root of the node's degree), and edges given by a column of target ids together with, for every edge `e`,
  the source row `s e` and the target row `t e` that the two gathers read. Write `P = X · W`.

  * EDGE FORM: every edge carries `P (s e) · (dv (s e) · dv (t e))`; the edges whose target id is `r` are summed into
    row `r`; the bias is added and the result clipped below at zero.
  * NODE FORM: row `p` of `P` is scaled by `dv p` BEFORE it is gathered; the edges whose target id is `r` are
    summed into row `r`; the sum is scaled by `dv r`, the bias added, the result clipped below at zero.

  For an edge whose target id is `r` the gathered target row is `r` itself, so the edge form's factor is
  `dv (s e) · dv r` and the common factor `dv r` comes out of the sum. That step is distributivity, which on the
  extended reals holds for finite values only; so the law is stated for entries that are real numbers, and both forms
  are shown equal to ONE real-valued formula (`layerReal`), which also shows a layer's output is again real — what the
  next layer needs.
-/
import Idealize.ShloMosaic.PureOps.Ideal
import Idealize.ShloMosaic.Lib.ValueIdx
import proofs.«118110_j45586782880364_2_alg».proof.Proof.LibSegmentSum

noncomputable section

open scoped BigOperators

namespace Cert.GraphLaw

open Idealize.ShloMosaic Idealize.ShloMosaic.ValueIdx Cert.Lib.SegmentSum

/-- A finite sum of real numbers, read in the extended reals, is the sum of the readings. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The larger of two real numbers, read in the extended reals, is the larger of the readings. -/
theorem coe_max (x y : ℝ) : ((max x y : ℝ) : EReal) = max (x : EReal) (y : EReal) :=
  EReal.coe_strictMono.monotone.map_max

variable {E N K D w : ℕ}

/-- One segment's sum of real entries is a real number. -/
theorem segSum_coe (ids : IVec ⟨2, ![E, 1]⟩ w) (f : Fin E → ℝ) (r : Fin N) :
    segSum ids (fun e => ((f e : ℝ) : EReal)) r
      = ((∑ e : Fin E, if rowOf ids e = (r.val : Int) then f e else 0 : ℝ) : EReal) := by
  unfold segSum
  rw [coe_sum]
  refine Finset.sum_congr rfl fun e _ => ?_
  split
  · rfl
  · rfl

/-- One segment's sum of a constant that is not negative (a count of edges, scaled) is a real number that is not negative. -/
theorem segSum_const_real (ids : IVec ⟨2, ![E, 1]⟩ w) (a : ℝ) (ha : 0 ≤ a) (r : Fin N) :
    ∃ n : ℝ, 0 ≤ n ∧ segSum ids (fun _ => ((a : ℝ) : EReal)) r = (n : EReal) :=
  ⟨_, Finset.sum_nonneg fun e _ => by split; exact ha; exact le_rfl, segSum_coe ids (fun _ => a) r⟩

/-- Entry (p, q) of the product of the feature rows with the weights. -/
def prodAt (X : Fin N → Fin K → EReal) (W : Fin K → Fin D → EReal) (p : Fin N) (q : Fin D) : EReal :=
  ∑ k : Fin K, X p k * W k q

/-- The same entry over the reals. -/
def prodReal (X : Fin N → Fin K → ℝ) (W : Fin K → Fin D → ℝ) (p : Fin N) (q : Fin D) : ℝ :=
  ∑ k : Fin K, X p k * W k q

theorem prodAt_coe (X : Fin N → Fin K → ℝ) (W : Fin K → Fin D → ℝ) (p : Fin N) (q : Fin D) :
    prodAt (fun p k => ((X p k : ℝ) : EReal)) (fun k q => ((W k q : ℝ) : EReal)) p q = ((prodReal X W p q : ℝ) : EReal) := by
  unfold prodAt prodReal
  rw [coe_sum]
  refine Finset.sum_congr rfl fun k _ => ?_
  exact (EReal.coe_mul _ _).symm

/-- NODE FORM of a layer at entry (r, q). -/
def nodeForm (ids : IVec ⟨2, ![E, 1]⟩ w) (s : Fin E → Fin N) (dv : Fin N → EReal)
    (X : Fin N → Fin K → EReal) (W : Fin K → Fin D → EReal) (b : Fin D → EReal) (r : Fin N) (q : Fin D) : EReal :=
  max (((0 : EReal) + segSum ids (fun e => prodAt X W (s e) q * dv (s e)) r) * dv r + b q) 0

/-- EDGE FORM of a layer at entry (r, q). -/
def edgeForm (ids : IVec ⟨2, ![E, 1]⟩ w) (s t : Fin E → Fin N) (dv : Fin N → EReal)
    (X : Fin N → Fin K → EReal) (W : Fin K → Fin D → EReal) (b : Fin D → EReal) (r : Fin N) (q : Fin D) : EReal :=
  max (((0 : EReal) + segSum ids (fun e => prodAt X W (s e) q * (dv (s e) * dv (t e))) r) + b q) 0

/-- The layer over the reals: the edge form's formula. -/
def layerReal (ids : IVec ⟨2, ![E, 1]⟩ w) (s t : Fin E → Fin N) (dv : Fin N → ℝ)
    (X : Fin N → Fin K → ℝ) (W : Fin K → Fin D → ℝ) (b : Fin D → ℝ) (r : Fin N) (q : Fin D) : ℝ :=
  max ((0 + ∑ e : Fin E, if rowOf ids e = (r.val : Int) then prodReal X W (s e) q * (dv (s e) * dv (t e)) else 0) + b q) 0

section Law
variable (ids : IVec ⟨2, ![E, 1]⟩ w) (s t : Fin E → Fin N)
  (dv : Fin N → EReal) (X : Fin N → Fin K → EReal) (W : Fin K → Fin D → EReal) (b : Fin D → EReal)
  (dv' : Fin N → ℝ) (X' : Fin N → Fin K → ℝ) (W' : Fin K → Fin D → ℝ) (b' : Fin D → ℝ)
  (hdv : ∀ p, dv p = ((dv' p : ℝ) : EReal)) (hX : ∀ p k, X p k = ((X' p k : ℝ) : EReal))
  (hW : ∀ k q, W k q = ((W' k q : ℝ) : EReal)) (hb : ∀ q, b q = ((b' q : ℝ) : EReal))

include hdv hX hW hb in
/-- The edge form of real entries is the real layer. -/
theorem edgeForm_eq (r : Fin N) (q : Fin D) :
    edgeForm ids s t dv X W b r q = ((layerReal ids s t dv' X' W' b' r q : ℝ) : EReal) := by
  obtain rfl : dv = fun p => ((dv' p : ℝ) : EReal) := funext hdv
  obtain rfl : X = fun p k => ((X' p k : ℝ) : EReal) := funext fun p => funext (hX p)
  obtain rfl : W = fun k q => ((W' k q : ℝ) : EReal) := funext fun k => funext (hW k)
  obtain rfl : b = fun q => ((b' q : ℝ) : EReal) := funext hb
  unfold edgeForm layerReal
  simp only [prodAt_coe, ← EReal.coe_mul]
  rw [segSum_coe, ← EReal.coe_zero, ← EReal.coe_add, ← EReal.coe_add, ← coe_max]

include hdv hX hW hb in
/-- THE LAW: the node form of real entries is the real layer too, when every edge whose target id is a row `r` has
    `r` for its gathered target row. -/
theorem nodeForm_eq (ht : ∀ e (r : Fin N), rowOf ids e = (r.val : Int) → t e = r) (r : Fin N) (q : Fin D) :
    nodeForm ids s dv X W b r q = ((layerReal ids s t dv' X' W' b' r q : ℝ) : EReal) := by
  obtain rfl : dv = fun p => ((dv' p : ℝ) : EReal) := funext hdv
  obtain rfl : X = fun p k => ((X' p k : ℝ) : EReal) := funext fun p => funext (hX p)
  obtain rfl : W = fun k q => ((W' k q : ℝ) : EReal) := funext fun k => funext (hW k)
  obtain rfl : b = fun q => ((b' q : ℝ) : EReal) := funext hb
  unfold nodeForm layerReal
  simp only [prodAt_coe, ← EReal.coe_mul]
  rw [segSum_coe, ← EReal.coe_zero, ← EReal.coe_add, ← EReal.coe_mul, ← EReal.coe_add, ← coe_max]
  refine congrArg (fun z : ℝ => (z : EReal)) ?_
  refine congrArg (fun z : ℝ => max (z + b' q) 0) ?_
  rw [zero_add, zero_add, Finset.sum_mul]
  refine Finset.sum_congr rfl fun e _ => ?_
  split
  · rename_i h
    rw [ht e r h]
    ring
  · exact zero_mul _

end Law

end Cert.GraphLaw

end
-- ==== Proof.HostStages.lean ====
/-
  The host operations around the kernels, as named functions of the arrays, read at an entry.

  Both programs build the same edge lists from the [2, 1600000] index array: sources and targets, each followed by
  the 100000 self loops. The degree of a node is the number of edges whose target id is the node; `dinv` is its
  inverse square root where the degree is positive and 0 elsewhere — a real number in every case, since a degree is a
  finite count. A row is taken from a table by an id after negative ids are wrapped by 100000 (and the gather clamps);
  a row is added into by the RAW target id, and an id outside [0, 100000) adds nowhere. For an edge whose target id is
  a row `r` the wrapped, clamped target id is `r` again (`tgtRow_of_id`): the fact the law between the two forms of
  a layer needs.

  * `aggOf Y`: the rows of `Y` taken at the sources and summed into their targets (the kernel's aggregation).
  * `refLayer X W b`: a whole layer of the reference — product, gather, per-edge factor `dinv[src] · dinv[dst]`,
    sum into targets, bias, clip at zero — which at an entry is the EDGE FORM of Proof/GraphLaw.lean.
-/
import proofs.«118110_j45586782880364_2_alg».proof.ReferenceIdeal
import proofs.«118110_j45586782880364_2_alg».proof.Proof.Gen.ReferenceIdeal
import proofs.«118110_j45586782880364_2_alg».proof.Proof.LibSegmentSum
import proofs.«118110_j45586782880364_2_alg».proof.Proof.LibGatherRows
import proofs.«118110_j45586782880364_2_alg».proof.Proof.LibPlainDot
import proofs.«118110_j45586782880364_2_alg».proof.Proof.GraphLaw
import Idealize.ShloMosaic.Lib.Pipeline.Value
import Idealize.ShloMosaic.Lib.ValueIdx
import Idealize.ShloMosaic.Lib.Affine
import Idealize.ShloMosaic.PureOps.Ideal.Laws

noncomputable section

open scoped BigOperators

namespace Cert.GraphStages

open Cert.ReferenceIdeal Cert.ReferenceIdeal.Gen Idealize.ShloMosaic Idealize.ShloMosaic.ValueIdx
open Cert.Lib.SegmentSum Cert.Lib.GatherRows Cert.GraphLaw

attribute [local irreducible] Cert.Lib.SegmentSum.segSum

/-! ## Layout operations at an entry -/

/-- A scalar constant spread over any shape is that constant everywhere. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b :=
  broadcastInDim_apply ![] h _ i ix0 (fun a => a.elim0)

/-- An integer constant spread over any shape is that constant everywhere. -/
theorem splatI_apply {s : Shape} (h : S_.BroadcastsInDim s (![] : Fin 0 → Fin s.rank)) (b : BitVec 32) (i : s.Idx) :
    broadcastInDim s ![] h (constantI S_ 32 b) i = b :=
  broadcastInDim_apply ![] h _ i ix0 (fun a => a.elim0)

/-- A list as an [E, 1] column. -/
def col {α : Type} (v : S1700000.Idx → α) : S1700000x1.Idx → α :=
  broadcastInDim S1700000x1 ![0] bcast_S1700000_S1700000x1_0 v

theorem col_apply {α : Type} (v : S1700000.Idx → α) (e : Fin 1700000) : col v (ix2 e (0 : Fin 1)) = v (ix1 e) := by
  unfold col
  refine broadcastInDim_apply ![0] bcast_S1700000_S1700000x1_0 v (ix2 e (0 : Fin 1)) (ix1 e) fun a => ?_
  match a with
  | ⟨0, _⟩ =>
    show e.val = if (1700000 : ℕ) = 1 then 0 else e.val
    rw [if_neg (by decide)]

/-- A column spread along 128 columns. -/
theorem spread_apply (v : S1700000x1.Idx → EReal) (e : Fin 1700000) (q : Fin 128) :
    broadcastInDim S1700000x128 ![0, 1] bcast_S1700000x1_S1700000x128_0_1 v (ix2 e q) = v (ix2 e (0 : Fin 1)) := by
  refine broadcastInDim_apply ![0, 1] bcast_S1700000x1_S1700000x128_0_1 v (ix2 e q) (ix2 e (0 : Fin 1)) fun a => ?_
  match a with
  | ⟨0, _⟩ =>
    show e.val = if (1700000 : ℕ) = 1 then 0 else e.val
    rw [if_neg (by decide)]
  | ⟨1, _⟩ =>
    show (0 : ℕ) = if (1 : ℕ) = 1 then 0 else q.val
    rw [if_pos rfl]

/-- The bias as a row, spread down all rows. -/
theorem bias_apply (b : S128.Idx → EReal) (r : Fin 100000) (q : Fin 128) :
    broadcastInDim S100000x128 ![0, 1] bcast_S1x128_S100000x128_0_1 (broadcastInDim S1x128 ![1] bcast_S128_S1x128_1 b) (ix2 r q)
      = b (ix1 q) := by
  refine (broadcastInDim_apply ![0, 1] bcast_S1x128_S100000x128_0_1 _ (ix2 r q) (ix2 (0 : Fin 1) q) fun a => ?_).trans ?_
  · match a with
    | ⟨0, _⟩ =>
      show (0 : ℕ) = if (1 : ℕ) = 1 then 0 else r.val
      rw [if_pos rfl]
    | ⟨1, _⟩ =>
      show q.val = if (128 : ℕ) = 1 then 0 else q.val
      rw [if_neg (by decide)]
  · refine broadcastInDim_apply ![1] bcast_S128_S1x128_1 b (ix2 (0 : Fin 1) q) (ix1 q) fun a => ?_
    match a with
    | ⟨0, _⟩ =>
      show q.val = if (128 : ℕ) = 1 then 0 else q.val
      rw [if_neg (by decide)]

/-! ## The edge lists -/

/-- The sources: row 0 of the index array, then the self loops. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The targets: row 1 of the index array, then the self loops. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- Negative ids wrapped by the number of nodes (what indexing does before it gathers). -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An id that is not negative is left alone. -/
theorem wrap_of_nonneg (v : IVec S1700000 32) (e : Fin 1700000) (h : 0 ≤ (v (ix1 e)).toInt) : wrap v (ix1 e) = v (ix1 e) := by
  unfold wrap
  rw [select_apply]
  have hc : cmpi .slt v (broadcastInDim S1700000 ![] bcast_S_S1700000 (constantI S_ 32 0#32)) (ix1 e) = 0#1 := by
    refine eq_zero_of_ne_one fun h1 => ?_
    have h2 : IntOp.cmpi .slt (v (ix1 e)) (broadcastInDim S1700000 ![] bcast_S_S1700000 (constantI S_ 32 0#32) (ix1 e)) = 1#1 := h1
    rw [splatI_apply] at h2
    have h3 := IntOp.cmpi_slt.mp h2
    rw [BitVec.toInt_zero] at h3
    omega
  rw [hc, select_zero]

/-- The row the gathers read for edge `e` of an id list: the id, wrapped, then clamped into the table. -/
def rowOfList (v : IVec S1700000 32) (e : Fin 1700000) : Fin 100000 :=
  rowAt 100000 (by decide) (col (wrap v)) e

/-- For an edge whose RAW id is a row `r` (what the scatter tests), the row the gathers read is `r`. -/
theorem tgtRow_of_id (v : IVec S1700000 32) (e : Fin 1700000) (r : Fin 100000)
    (h : rowOf (col v) e = (r.val : Int)) : rowOfList v e = r := by
  have hv : (v (ix1 e)).toInt = (r.val : Int) := by
    have := h; unfold rowOf at this; rw [col_apply] at this; exact this
  refine rowAt_of_toInt (by decide) (col (wrap v)) e r ?_
  rw [col_apply, wrap_of_nonneg v e (by rw [hv]; exact Int.natCast_nonneg _), hv]

/-! ## The degree and its inverse square root -/

/-- The number of edges into each node, as a float array: ones added by target id onto zeros. -/
def degOf (dst : IVec S1700000 32) : FVec Ideal S100000 .f32 :=
  Host.scatterAdd scatter_S100000_S1700000x1_S1700000_n_0_0_1
    (broadcastInDim S100000 ![] bcast_S_S100000 (constant (F := Ideal) S_ .f32 0x00000000#32)) (col dst)
    (broadcastInDim S1700000 ![] bcast_S_S1700000 (constant (F := Ideal) S_ .f32 0x3F800000#32))

/-- `rsqrt(deg)` where the degree is positive, 0 elsewhere. -/
def dinvOf (dst : IVec S1700000 32) : FVec Ideal S100000 .f32 :=
  select (cmpf (F := Ideal) .ogt (degOf dst) (broadcastInDim S100000 ![] bcast_S_S100000 (constant (F := Ideal) S_ .f32 0x00000000#32)))
    (Host.rsqrt (degOf dst)) (broadcastInDim S100000 ![] bcast_S_S100000 (constant (F := Ideal) S_ .f32 0x00000000#32))

/-- The pattern of 1.0 denotes the real number 1. -/
theorem ofBits_one : Ideal.ofBits .f32 0x3F800000#32 = ((1 : ℝ) : EReal) := by
  simp [Ideal.ofBits, Ideal.ieee, -EReal.coe_mul]
  norm_num

/-- A degree is a real number that is not negative. -/
theorem deg_real (dst : IVec S1700000 32) (r : Fin 100000) : ∃ n : ℝ, 0 ≤ n ∧ degOf dst (ix1 r) = (n : EReal) := by
  obtain ⟨n, hn, h⟩ := segSum_const_real (N := 100000) (col dst) 1 zero_le_one r
  refine ⟨n, hn, ?_⟩
  unfold degOf
  rw [flat_apply_host scatter_S100000_S1700000x1_S1700000_n_0_0_1_wf scatter_S100000_S1700000x1_S1700000_n_0_0_1 rfl,
    splat_apply, Ideal.ofBits_zero_f32, zero_add]
  exact (congrArg (fun f => segSum (col dst) f r) (funext fun e => (splat_apply _ _ _).trans ofBits_one)).trans h

/-- Where an array holds a real number that is not negative, "its inverse square root where it is positive, else 0"
    is a real number. This holds of any array. -/
theorem rsqrt_or_zero_real (D : FVec Ideal S100000 .f32) (r : Fin 100000) (n : ℝ) (hn : 0 ≤ n) (hD : D (ix1 r) = (n : EReal)) :
    ∃ d : ℝ, select (cmpf (F := Ideal) .ogt D (broadcastInDim S100000 ![] bcast_S_S100000 (constant (F := Ideal) S_ .f32 0x00000000#32)))
      (Host.rsqrt D) (broadcastInDim S100000 ![] bcast_S_S100000 (constant (F := Ideal) S_ .f32 0x00000000#32)) (ix1 r) = (d : EReal) := by
  rw [select_apply]
  have hcmp : cmpf (F := Ideal) .ogt D (broadcastInDim S100000 ![] bcast_S_S100000 (constant (F := Ideal) S_ .f32 0x00000000#32)) (ix1 r)
      = Ideal.cmp .ogt (n : EReal) 0 := by
    show Ideal.cmp .ogt (D (ix1 r)) (broadcastInDim S100000 ![] bcast_S_S100000 (constant (F := Ideal) S_ .f32 0x00000000#32) (ix1 r)) = _
    rw [splat_apply, Ideal.ofBits_zero_f32, hD]
  have hrs : Host.rsqrt D (ix1 r) = Ideal.rsqrt (n : EReal) := by
    show Ideal.rsqrt (D (ix1 r)) = _
    rw [hD]
  rw [hcmp, hrs, splat_apply, Ideal.ofBits_zero_f32]
  by_cases hpos : 0 < n
  · refine ⟨(Real.sqrt n)⁻¹, ?_⟩
    have hc : Ideal.cmp .ogt (n : EReal) 0 = 1#1 := by
      unfold Ideal.cmp
      simp only [EReal.coe_pos.mpr hpos, decide_true]
      rfl
    rw [hc, select_one, Ideal.rsqrt_coe, if_neg (not_lt.mpr hn), if_neg (ne_of_gt hpos)]
  · refine ⟨0, ?_⟩
    have hn0 : n = 0 := le_antisymm (not_lt.mp hpos) hn
    have hc : Ideal.cmp .ogt (n : EReal) 0 = 0#1 := by
      unfold Ideal.cmp
      rw [hn0]
      simp only [EReal.coe_zero, lt_self_iff_false, decide_false]
      rfl
    rw [hc, select_zero]
    rfl

/-- `dinv` is a real number at every node. -/
theorem dinv_real (dst : IVec S1700000 32) (r : Fin 100000) : ∃ d : ℝ, dinvOf dst (ix1 r) = (d : EReal) := by
  obtain ⟨n, hn, hdeg⟩ := deg_real dst r
  unfold dinvOf
  exact rsqrt_or_zero_real (degOf dst) r n hn hdeg

/-! ## The kernel's aggregation -/

/-- Rows of `Y` taken at the sources, summed into their targets, onto zeros. -/
def aggOf (Y : S100000x128.Idx → EReal) (src dst : IVec S1700000 32) : FVec Ideal S100000x128 .f32 :=
  Host.scatterAdd scatter_S100000x128_S1700000x1_S1700000x128_1_0_0_1
    (broadcastInDim S100000x128 ![] bcast_S_S100000x128 (constant (F := Ideal) S_ .f32 0x00000000#32)) (col dst)
    (Host.gather gather_S100000x128_S1700000x1_S1700000x128_1_0_n_n_0_1_1128 Y (col (wrap src)))

theorem aggOf_apply (Y : S100000x128.Idx → EReal) (src dst : IVec S1700000 32) (r : Fin 100000) (q : Fin 128) :
    aggOf Y src dst (ix2 r q) = (0 : EReal) + segSum (col dst) (fun e => Y (ix2 (rowOfList src e) q)) r := by
  unfold aggOf rowOfList
  rw [rows_apply_host scatter_S100000x128_S1700000x1_S1700000x128_1_0_0_1_wf scatter_S100000x128_S1700000x1_S1700000x128_1_0_0_1 rfl,
    splat_apply, Ideal.ofBits_zero_f32]
  refine congrArg (fun f => (0 : EReal) + segSum (col dst) f r) (funext fun e => ?_)
  exact Cert.Lib.GatherRows.rows_apply_host (by decide) gather_S100000x128_S1700000x1_S1700000x128_1_0_n_n_0_1_1128_wf
    gather_S100000x128_S1700000x1_S1700000x128_1_0_n_n_0_1_1128 rfl Y (col (wrap src)) e q

/-! ## The reference's layer -/

def refLayer (X : FVec Ideal S100000x128 .f32) (W : FVec Ideal S128x128 .f32) (b : FVec Ideal S128 .f32)
    (src dst : IVec S1700000 32) : FVec Ideal S100000x128 .f32 :=
  maximumf (addf (Host.scatterAdd scatter_S100000x128_S1700000x1_S1700000x128_1_0_0_1
        (broadcastInDim S100000x128 ![] bcast_S_S100000x128 (constant (F := Ideal) S_ .f32 0x00000000#32)) (col dst)
        (mulf (Host.gather gather_S100000x128_S1700000x1_S1700000x128_1_0_n_n_0_1_1128
            (Host.dotGeneral dot_S100000x128_S128x128_S100000x128_1_0_0_1_n_n none X W) (col (wrap src)))
          (broadcastInDim S1700000x128 ![0, 1] bcast_S1700000x1_S1700000x128_0_1 (col
            (mulf (Host.gather gather_S100000_S1700000x1_S1700000_n_0_n_n_0_1_1 (dinvOf dst) (col (wrap src)))
              (Host.gather gather_S100000_S1700000x1_S1700000_n_0_n_n_0_1_1 (dinvOf dst) (col (wrap dst))))))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- A sum of two arrays clipped below by a third, at an entry. -/
theorem max_add_apply {s : Shape} (S B Z : FVec Ideal s .f32) (i : s.Idx) : maximumf (addf S B) Z i = max (S i + B i) (Z i) := rfl

/-- A product of two arrays at an entry. -/
theorem mul_apply {s : Shape} (A B : FVec Ideal s .f32) (i : s.Idx) : mulf A B i = A i * B i := rfl

/-- A layer of the reference at an entry is the edge form. -/
theorem refLayer_apply (X : FVec Ideal S100000x128 .f32) (W : FVec Ideal S128x128 .f32) (b : FVec Ideal S128 .f32)
    (src dst : IVec S1700000 32) (r : Fin 100000) (q : Fin 128) :
    refLayer X W b src dst (ix2 r q)
      = edgeForm (col dst) (rowOfList src) (rowOfList dst) (fun p => dinvOf dst (ix1 p))
          (fun p k => X (ix2 p k)) (fun k q => W (ix2 k q)) (fun q => b (ix1 q)) r q := by
  unfold refLayer edgeForm prodAt rowOfList
  rw [max_add_apply, splat_apply, Ideal.ofBits_zero_f32, bias_apply,
    rows_apply_host scatter_S100000x128_S1700000x1_S1700000x128_1_0_0_1_wf scatter_S100000x128_S1700000x1_S1700000x128_1_0_0_1 rfl,
    splat_apply, Ideal.ofBits_zero_f32]
  refine congrArg (fun f => max (((0 : EReal) + segSum (col dst) f r) + b (ix1 q)) 0) (funext fun e => ?_)
  rw [mul_apply, spread_apply, col_apply, mul_apply,
    Cert.Lib.GatherRows.rows_apply_host (by decide) gather_S100000x128_S1700000x1_S1700000x128_1_0_n_n_0_1_1128_wf
      gather_S100000x128_S1700000x1_S1700000x128_1_0_n_n_0_1_1128 rfl,
    Cert.Lib.PlainDot.dotGeneral_apply dot_S100000x128_S128x128_S100000x128_1_0_0_1_n_n rfl,
    Cert.Lib.GatherRows.flat_apply_host (by decide) gather_S100000_S1700000x1_S1700000_n_0_n_n_0_1_1_wf
      gather_S100000_S1700000x1_S1700000_n_0_n_n_0_1_1 rfl,
    Cert.Lib.GatherRows.flat_apply_host (by decide) gather_S100000_S1700000x1_S1700000_n_0_n_n_0_1_1_wf
      gather_S100000_S1700000x1_S1700000_n_0_n_n_0_1_1 rfl]

end Cert.GraphStages

end
-- ==== Proof.KernelValue.lean ====
/-
  The idealized kernel's result as one function of its arguments.

  Walking the boundaries of @main backwards: the result is region 2's output over the second aggregate; that
  aggregate gathers and sums region 1's output; region 1 reads the first aggregate, which gathers and sums region 0's
  output; region 0 reads the features, the first weights and the column of node factors. The edge lists and the node
  factors are computed once, before region 0, and no later segment writes them.

  At an entry the result is the NODE FORM of a layer (Proof/GraphLaw.lean) applied to the node form of the first layer.
-/
import proofs.«118110_j45586782880364_2_alg».proof.Proof.KernelRun
import proofs.«118110_j45586782880364_2_alg».proof.Proof.RegionValues
import proofs.«118110_j45586782880364_2_alg».proof.Proof.HostStages
import Idealize.ShloMosaic.Lib.StableHlo.Run
import Idealize.ShloMosaic.Lib.ValueLayout

set_option maxRecDepth 16384

noncomputable section

open scoped BigOperators

namespace Cert.KernelIdeal.RunValue

open Cert.KernelIdeal Cert.KernelIdeal.Gen Cert.KernelIdeal.RegionValue
open Idealize.ShloMosaic Idealize.ShloMosaic.TcCoe Idealize.ShloMosaic.ValueIdx Idealize.SL.Sem
open Cert.GraphStages Cert.GraphLaw Cert.Lib.SegmentSum

attribute [local irreducible] Cert.Lib.SegmentSum.segSum

/-! ## The kernel's own layout steps -/

/-- The node factors as a column. -/
def dcolOf (dst : IVec S1700000 32) : FVec Ideal S100000x1 .f32 :=
  shapeCast S100000x1 (dinvOf dst) shapeCasts_S100000_S100000x1

theorem dcolOf_apply (dst : IVec S1700000 32) (r : Fin 100000) : dcolOf dst (ix2 r (0 : Fin 1)) = dinvOf dst (ix1 r) := by
  unfold dcolOf
  refine shapeCast_apply _ _ _ _ ?_
  rw [Shape.rowMajor_val_two, Shape.rowMajor_val_one]
  show r.val = r.val * 1 + 0
  omega

/-- A bias as a row. -/
def browOf (b : FVec Ideal S128 .f32) : FVec Ideal S1x128 .f32 := shapeCast S1x128 b shapeCasts_S128_S1x128

theorem browOf_apply (b : FVec Ideal S128 .f32) (q : Fin 128) : browOf b (ix2 (0 : Fin 1) q) = b (ix1 q) :=
  shapeCast_a_1a_apply b shapeCasts_S128_S1x128 0 q

/-! ## The result as a function of the arguments -/

def kernelOut (x : FVec Ideal S100000x128 .f32) (ei : IVec S2x1600000 32) (w1 : FVec Ideal S128x128 .f32) (b1 : FVec Ideal S128 .f32)
    (w2 : FVec Ideal S128x128 .f32) (b2 : FVec Ideal S128 .f32) : S100000x128.Idx → EReal :=
  arr2 (g2 (aggOf (arr2 (g1 (aggOf (arr2 (g0 x w1 (dcolOf (dstOf ei)))) (srcOf ei) (dstOf ei)) (browOf b1) (dcolOf (dstOf ei)) w2))
    (srcOf ei) (dstOf ei)) (browOf b2) (dcolOf (dstOf ei)))

/-! ### The host stretches, over any contents `W` of the buffers they start from -/

section Stretches
variable (W : Valuation τ sig (Elt Ideal))

theorem pre_v3 : StableHlo.after (hostOps0_2 (F := Ideal)) (StableHlo.after (hostOps0_1 (F := Ideal)) (StableHlo.after (hostOps0 (F := Ideal)) W)) (Proc.devRef .tc main_v3)
    = srcOf (W (Proc.devRef .tc main_arg1)) := by
  after_results
  rfl
theorem pre_v6 : StableHlo.after (hostOps0_2 (F := Ideal)) (StableHlo.after (hostOps0_1 (F := Ideal)) (StableHlo.after (hostOps0 (F := Ideal)) W)) (Proc.devRef .tc main_v6)
    = dstOf (W (Proc.devRef .tc main_arg1)) := by
  after_results
  rfl
theorem first_v12 : StableHlo.after (hostOps0 (F := Ideal)) W (Proc.devRef .tc main_v12)
    = cmpf (F := Ideal) .ogt (degOf (dstOf (W (Proc.devRef .tc main_arg1))))
        (broadcastInDim S100000 ![] bcast_S_S100000 (constant (F := Ideal) S_ .f32 0x00000000#32)) := by
  after_results
  rfl
theorem first_v13 : StableHlo.after (hostOps0 (F := Ideal)) W (Proc.devRef .tc main_v13)
    = Host.rsqrt (degOf (dstOf (W (Proc.devRef .tc main_arg1)))) := by
  after_results
  rfl
theorem first_cst2 : StableHlo.after (hostOps0 (F := Ideal)) W (Proc.devRef .tc main_cst_2)
    = constant (F := Ideal) S_ .f32 0x00000000#32 := by
  after_results
/-- The outlined `where` and the reshape after it, over any contents of the three buffers they read. -/
theorem where_v15 : StableHlo.after (hostOps0_2 (F := Ideal)) (StableHlo.after (hostOps0_1 (F := Ideal)) W) (Proc.devRef .tc main_v15)
    = shapeCast S100000x1 (select (W (Proc.devRef .tc main_v12)) (W (Proc.devRef .tc main_v13))
        (broadcastInDim S100000 ![] bcast_S_S100000 (W (Proc.devRef .tc main_cst_2)))) shapeCasts_S100000_S100000x1 := by
  after_results
  rfl
theorem pre_v15 : StableHlo.after (hostOps0_2 (F := Ideal)) (StableHlo.after (hostOps0_1 (F := Ideal)) (StableHlo.after (hostOps0 (F := Ideal)) W)) (Proc.devRef .tc main_v15)
    = dcolOf (dstOf (W (Proc.devRef .tc main_arg1))) := by
  rw [where_v15, first_v12, first_v13, first_cst2]
  rfl
theorem pre_arg0 : StableHlo.after (hostOps0_2 (F := Ideal)) (StableHlo.after (hostOps0_1 (F := Ideal)) (StableHlo.after (hostOps0 (F := Ideal)) W)) (Proc.devRef .tc main_arg0)
    = W (Proc.devRef .tc main_arg0) := by
  after_results
theorem pre_arg2 : StableHlo.after (hostOps0_2 (F := Ideal)) (StableHlo.after (hostOps0_1 (F := Ideal)) (StableHlo.after (hostOps0 (F := Ideal)) W)) (Proc.devRef .tc main_arg2)
    = W (Proc.devRef .tc main_arg2) := by
  after_results
theorem pre_arg3 : StableHlo.after (hostOps0_2 (F := Ideal)) (StableHlo.after (hostOps0_1 (F := Ideal)) (StableHlo.after (hostOps0 (F := Ideal)) W)) (Proc.devRef .tc main_arg3)
    = W (Proc.devRef .tc main_arg3) := by
  after_results
theorem pre_arg4 : StableHlo.after (hostOps0_2 (F := Ideal)) (StableHlo.after (hostOps0_1 (F := Ideal)) (StableHlo.after (hostOps0 (F := Ideal)) W)) (Proc.devRef .tc main_arg4)
    = W (Proc.devRef .tc main_arg4) := by
  after_results
theorem pre_arg5 : StableHlo.after (hostOps0_2 (F := Ideal)) (StableHlo.after (hostOps0_1 (F := Ideal)) (StableHlo.after (hostOps0 (F := Ideal)) W)) (Proc.devRef .tc main_arg5)
    = W (Proc.devRef .tc main_arg5) := by
  after_results

theorem mid1_v27 : StableHlo.after (hostOps1 (F := Ideal)) W (Proc.devRef .tc main_v27)
    = aggOf (W (Proc.devRef .tc main_v16)) (W (Proc.devRef .tc main_v3)) (W (Proc.devRef .tc main_v6)) := by
  after_results
  rfl
theorem mid1_v28 : StableHlo.after (hostOps1 (F := Ideal)) W (Proc.devRef .tc main_v28) = browOf (W (Proc.devRef .tc main_arg3)) := by
  after_results
  rfl
theorem mid1_v15 : StableHlo.after (hostOps1 (F := Ideal)) W (Proc.devRef .tc main_v15) = W (Proc.devRef .tc main_v15) := by after_results
theorem mid1_v3 : StableHlo.after (hostOps1 (F := Ideal)) W (Proc.devRef .tc main_v3) = W (Proc.devRef .tc main_v3) := by after_results
theorem mid1_v6 : StableHlo.after (hostOps1 (F := Ideal)) W (Proc.devRef .tc main_v6) = W (Proc.devRef .tc main_v6) := by after_results
theorem mid1_arg4 : StableHlo.after (hostOps1 (F := Ideal)) W (Proc.devRef .tc main_arg4) = W (Proc.devRef .tc main_arg4) := by after_results
theorem mid1_arg5 : StableHlo.after (hostOps1 (F := Ideal)) W (Proc.devRef .tc main_arg5) = W (Proc.devRef .tc main_arg5) := by after_results

theorem mid2_v40 : StableHlo.after (hostOps2 (F := Ideal)) W (Proc.devRef .tc main_v40)
    = aggOf (W (Proc.devRef .tc main_v29)) (W (Proc.devRef .tc main_v3)) (W (Proc.devRef .tc main_v6)) := by
  after_results
  rfl
theorem mid2_v41 : StableHlo.after (hostOps2 (F := Ideal)) W (Proc.devRef .tc main_v41) = browOf (W (Proc.devRef .tc main_arg5)) := by
  after_results
  rfl
theorem mid2_v15 : StableHlo.after (hostOps2 (F := Ideal)) W (Proc.devRef .tc main_v15) = W (Proc.devRef .tc main_v15) := by after_results

end Stretches

variable (m : (ℓ : Loc nD τ sig) → Buf (Elt Ideal) ℓ) (ρ : Dev nD → PrngReg) (c : Dev nD)

/-! ### Before region 0 -/

theorem W3_arg0 : W3 m ρ c (Proc.devRef .tc main_arg0) = m ((c.tc : Thread nD τ).loc main_arg0) := pre_arg0 (W0 m ρ c)
theorem W3_arg2 : W3 m ρ c (Proc.devRef .tc main_arg2) = m ((c.tc : Thread nD τ).loc main_arg2) := pre_arg2 (W0 m ρ c)
theorem W3_arg3 : W3 m ρ c (Proc.devRef .tc main_arg3) = m ((c.tc : Thread nD τ).loc main_arg3) := pre_arg3 (W0 m ρ c)
theorem W3_arg4 : W3 m ρ c (Proc.devRef .tc main_arg4) = m ((c.tc : Thread nD τ).loc main_arg4) := pre_arg4 (W0 m ρ c)
theorem W3_arg5 : W3 m ρ c (Proc.devRef .tc main_arg5) = m ((c.tc : Thread nD τ).loc main_arg5) := pre_arg5 (W0 m ρ c)
theorem W3_v3 : W3 m ρ c (Proc.devRef .tc main_v3) = srcOf (m ((c.tc : Thread nD τ).loc main_arg1)) := pre_v3 (W0 m ρ c)
theorem W3_v6 : W3 m ρ c (Proc.devRef .tc main_v6) = dstOf (m ((c.tc : Thread nD τ).loc main_arg1)) := pre_v6 (W0 m ρ c)
theorem W3_v15 : W3 m ρ c (Proc.devRef .tc main_v15) = dcolOf (dstOf (m ((c.tc : Thread nD τ).loc main_arg1))) := pre_v15 (W0 m ρ c)

/-! ### Region 0, and the stretch after it -/

theorem W4_v16 : W4 m ρ c (Proc.devRef .tc main_v16)
    = arr2 (g0 (m ((c.tc : Thread nD τ).loc main_arg0)) (m ((c.tc : Thread nD τ).loc main_arg2))
        (dcolOf (dstOf (m ((c.tc : Thread nD τ).loc main_arg1))))) := by
  refine ((W4_arr m ρ c 3).trans (final0 (V3 m ρ) c)).trans ?_
  show arr2 (g0 (W3 m ρ c (Proc.devRef .tc main_arg0)) (W3 m ρ c (Proc.devRef .tc main_arg2)) (W3 m ρ c (Proc.devRef .tc main_v15))) = _
  rw [W3_arg0, W3_arg2, W3_v15]

theorem W4_v15 : W4 m ρ c (Proc.devRef .tc main_v15) = dcolOf (dstOf (m ((c.tc : Thread nD τ).loc main_arg1))) :=
  ((W4_arr m ρ c 2).trans (((dat0 (V3 m ρ) c).arrAt_in 2 rfl _).trans (A_eq0 (V3 m ρ) c 2))).trans (W3_v15 m ρ c)
theorem W4_v3 : W4 m ρ c (Proc.devRef .tc main_v3) = srcOf (m ((c.tc : Thread nD τ).loc main_arg1)) :=
  (W4_of_ne m ρ c main_v3 (by decide)).trans (W3_v3 m ρ c)
theorem W4_v6 : W4 m ρ c (Proc.devRef .tc main_v6) = dstOf (m ((c.tc : Thread nD τ).loc main_arg1)) :=
  (W4_of_ne m ρ c main_v6 (by decide)).trans (W3_v6 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

theorem W5_v27 : W5 m ρ c (Proc.devRef .tc main_v27)
    = aggOf (W4 m ρ c (Proc.devRef .tc main_v16)) (W4 m ρ c (Proc.devRef .tc main_v3)) (W4 m ρ c (Proc.devRef .tc main_v6)) :=
  mid1_v27 (W4 m ρ c)

theorem W5_v28 : W5 m ρ c (Proc.devRef .tc main_v28) = browOf (W4 m ρ c (Proc.devRef .tc main_arg3)) :=
  mid1_v28 (W4 m ρ c)

theorem W5_v15 : W5 m ρ c (Proc.devRef .tc main_v15) = W4 m ρ c (Proc.devRef .tc main_v15) :=
  mid1_v15 (W4 m ρ c)

theorem W5_v3 : W5 m ρ c (Proc.devRef .tc main_v3) = W4 m ρ c (Proc.devRef .tc main_v3) :=
  mid1_v3 (W4 m ρ c)

theorem W5_v6 : W5 m ρ c (Proc.devRef .tc main_v6) = W4 m ρ c (Proc.devRef .tc main_v6) :=
  mid1_v6 (W4 m ρ c)

theorem W5_arg4 : W5 m ρ c (Proc.devRef .tc main_arg4) = W4 m ρ c (Proc.devRef .tc main_arg4) :=
  mid1_arg4 (W4 m ρ c)

theorem W5_arg5 : W5 m ρ c (Proc.devRef .tc main_arg5) = W4 m ρ c (Proc.devRef .tc main_arg5) :=
  mid1_arg5 (W4 m ρ c)

/-! ### Region 1, and the stretch after it -/

theorem W6_v29 : W6 m ρ c (Proc.devRef .tc main_v29)
    = arr2 (g1 (W5 m ρ c (Proc.devRef .tc main_v27)) (W5 m ρ c (Proc.devRef .tc main_v28)) (W5 m ρ c (Proc.devRef .tc main_v15))
        (W5 m ρ c (Proc.devRef .tc main_arg4))) :=
  (W6_arr m ρ c 4).trans (final1 (V5 m ρ) c)
theorem W6_v15 : W6 m ρ c (Proc.devRef .tc main_v15) = W5 m ρ c (Proc.devRef .tc main_v15) :=
  (W6_arr m ρ c 2).trans (((dat1 (V5 m ρ) c).arrAt_in 2 rfl _).trans (A_eq1 (V5 m ρ) c 2))
theorem W6_v3 : W6 m ρ c (Proc.devRef .tc main_v3) = W5 m ρ c (Proc.devRef .tc main_v3) := W6_of_ne m ρ c main_v3 (by decide)
theorem W6_v6 : W6 m ρ c (Proc.devRef .tc main_v6) = W5 m ρ c (Proc.devRef .tc main_v6) := W6_of_ne m ρ c main_v6 (by decide)
theorem W6_arg5 : W6 m ρ c (Proc.devRef .tc main_arg5) = W5 m ρ c (Proc.devRef .tc main_arg5) := W6_of_ne m ρ c main_arg5 (by decide)

theorem W7_v40 : W7 m ρ c (Proc.devRef .tc main_v40)
    = aggOf (W6 m ρ c (Proc.devRef .tc main_v29)) (W6 m ρ c (Proc.devRef .tc main_v3)) (W6 m ρ c (Proc.devRef .tc main_v6)) :=
  mid2_v40 (W6 m ρ c)

theorem W7_v41 : W7 m ρ c (Proc.devRef .tc main_v41) = browOf (W6 m ρ c (Proc.devRef .tc main_arg5)) :=
  mid2_v41 (W6 m ρ c)

theorem W7_v15 : W7 m ρ c (Proc.devRef .tc main_v15) = W6 m ρ c (Proc.devRef .tc main_v15) :=
  mid2_v15 (W6 m ρ c)

/-! ### Region 2: the result -/

/-- THE RESULT ARRAY after the run is `kernelOut` of the arguments. -/
theorem W8_v42 : W8 m ρ c (Proc.devRef .tc main_v42)
    = kernelOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine ((W8_arr m ρ c 3).trans (final2 (V7 m ρ) c)).trans ?_
  show arr2 (g2 (W7 m ρ c (Proc.devRef .tc main_v40)) (W7 m ρ c (Proc.devRef .tc main_v41)) (W7 m ρ c (Proc.devRef .tc main_v15))) = _
  rw [W7_v40, W7_v41, W7_v15, W6_v29, W6_v3, W6_v6, W6_arg5, W6_v15, W5_v27, W5_v28, W5_v15, W5_v3, W5_v6, W5_arg4, W5_arg5,
    W4_v16, W4_v15, W4_v3, W4_v6, W4_arg3, W4_arg4, W4_arg5]
  rfl

/-- The kernel's run: it terminates with the result at `kernelOut` of the arguments and the arguments unchanged. -/
theorem run : θ_run defs (onTc (τ := τ) (main (F := Ideal))) ⟨m, fun _ => 0, ρ⟩ (fun r => ∀ c : Dev nD,
      r.2.mem ((c.tc : Thread nD τ).loc main_v42)
        = kernelOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v42 m ρ c), (h c).2⟩) (run_result m ρ)

/-! ## The result at an entry -/

/-- One layer as the kernel computes it, at an entry: rows `X · W` scaled by the node factor, gathered at the sources and
    summed into the targets, then scaled by the target's factor, the bias added, clipped at zero — the node form. -/
theorem layer_apply (Xc : Fin 100000 → Fin 128 → EReal) (w : FVec Ideal S128x128 .f32) (b : FVec Ideal S128 .f32)
    (src dst : IVec S1700000 32) (r : Fin 100000) (q : Fin 128) :
    hid (aggOf (arr2 fun P q => (∑ k : Fin 128, Xc P k * w (ix2 k q)) * dcolOf dst (ix2 P (0 : Fin 1))) src dst (ix2 r q))
        (dcolOf dst (ix2 r (0 : Fin 1))) (browOf b (ix2 (0 : Fin 1) q))
      = nodeForm (col dst) (rowOfList src) (fun p => dinvOf dst (ix1 p)) Xc (fun k q => w (ix2 k q)) (fun q => b (ix1 q)) r q := by
  unfold hid nodeForm prodAt
  rw [aggOf_apply, dcolOf_apply, browOf_apply, Ideal.ofBits_zero_f32]
  simp only [arr2_apply, dcolOf_apply]

theorem kernelOut_apply (x : FVec Ideal S100000x128 .f32) (ei : IVec S2x1600000 32) (w1 : FVec Ideal S128x128 .f32)
    (b1 : FVec Ideal S128 .f32) (w2 : FVec Ideal S128x128 .f32) (b2 : FVec Ideal S128 .f32) (r : Fin 100000) (q : Fin 128) :
    kernelOut x ei w1 b1 w2 b2 (ix2 r q)
      = nodeForm (col (dstOf ei)) (rowOfList (srcOf ei)) (fun p => dinvOf (dstOf ei) (ix1 p))
          (fun P k => nodeForm (col (dstOf ei)) (rowOfList (srcOf ei)) (fun p => dinvOf (dstOf ei) (ix1 p))
            (fun p k => x (ix2 p k)) (fun k q => w1 (ix2 k q)) (fun q => b1 (ix1 q)) P k)
          (fun k q => w2 (ix2 k q)) (fun q => b2 (ix1 q)) r q := by
  have inner : ∀ (P : Fin 100000) (k : Fin 128),
      hid (aggOf (arr2 (g0 x w1 (dcolOf (dstOf ei)))) (srcOf ei) (dstOf ei) (ix2 P k)) (dcolOf (dstOf ei) (ix2 P (0 : Fin 1)))
          (browOf b1 (ix2 (0 : Fin 1) k))
        = nodeForm (col (dstOf ei)) (rowOfList (srcOf ei)) (fun p => dinvOf (dstOf ei) (ix1 p))
            (fun p k => x (ix2 p k)) (fun k q => w1 (ix2 k q)) (fun q => b1 (ix1 q)) P k :=
    fun P k => layer_apply (fun p k => x (ix2 p k)) w1 b1 (srcOf ei) (dstOf ei) P k
  refine Eq.trans ?_ (layer_apply _ w2 b2 (srcOf ei) (dstOf ei) r q)
  show hid (aggOf (arr2 (g1 _ (browOf b1) (dcolOf (dstOf ei)) w2)) (srcOf ei) (dstOf ei) (ix2 r q)) _ _ = _
  refine congrArg (fun Y => hid (aggOf (arr2 Y) (srcOf ei) (dstOf ei) (ix2 r q)) (dcolOf (dstOf ei) (ix2 r (0 : Fin 1)))
    (browOf b2 (ix2 (0 : Fin 1) q))) ?_
  funext P q'
  unfold g1
  simp only [inner]

end Cert.KernelIdeal.RunValue

end
-- ==== Proof.RefValue.lean ====
/-
  The idealized reference's result as one function of its arguments: two layers, each the stage `refLayer` of
  Proof/HostStages.lean over the same edge lists.
-/
import proofs.«118110_j45586782880364_2_alg».proof.Proof.RefRunPatched
import proofs.«118110_j45586782880364_2_alg».proof.Proof.HostStages

set_option maxRecDepth 16384

noncomputable section

namespace Cert.ReferenceIdeal.RefValue

open Cert.ReferenceIdeal Cert.ReferenceIdeal.Gen Cert.ReferenceIdeal.ValueP Cert.GraphStages
open Idealize.ShloMosaic Idealize.ShloMosaic.TcCoe Idealize.SL.Sem

/-- The reference: a layer over the features, then a layer over its output. -/
def refOut (x : FVec Ideal S100000x128 .f32) (ei : IVec S2x1600000 32) (w1 : FVec Ideal S128x128 .f32) (b1 : FVec Ideal S128 .f32)
    (w2 : FVec Ideal S128x128 .f32) (b2 : FVec Ideal S128 .f32) : FVec Ideal S100000x128 .f32 :=
  refLayer (refLayer x w1 b1 (srcOf ei) (dstOf ei)) w2 b2 (srcOf ei) (dstOf ei)

set_option maxHeartbeats 4000000 in
/-- The run's composed term is those two layers. -/
theorem res_eq (m : (ℓ : Loc nD τ sig) → Buf (Elt Ideal) ℓ) (c : Dev nD) :
    res_main_v88 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v88 refOut refLayer dinvOf degOf wrap srcOf dstOf col
  rfl

end Cert.ReferenceIdeal.RefValue

end
-- ==== Proof.Bridge.lean ====
/-
  The two results are one function of the arguments, when the float inputs are real numbers.

  At an entry (r, q) the kernel's result is the node form of a layer over the node form of the first layer, and the
  reference's the edge form over the edge form. With real inputs the node factors are real, so the first layer's two
  forms are the same real number (the law of Proof/GraphLaw.lean); that makes the second layer's inputs real and equal,
  and the law applies again.
-/
import proofs.«118110_j45586782880364_2_alg».proof.Proof.KernelValue
import proofs.«118110_j45586782880364_2_alg».proof.Proof.RefValue

set_option maxRecDepth 16384

noncomputable section

namespace Cert.Bridge

open Idealize.ShloMosaic Idealize.ShloMosaic.ValueIdx
open Cert.GraphStages Cert.GraphLaw Cert.Lib.SegmentSum
open Cert.KernelIdeal.RunValue Cert.ReferenceIdeal.RefValue

attribute [local irreducible] Cert.Lib.SegmentSum.segSum

theorem kernel_eq_ref (x : FVec Ideal Cert.ReferenceIdeal.S100000x128 .f32) (ei : IVec Cert.ReferenceIdeal.S2x1600000 32)
    (w1 : FVec Ideal Cert.ReferenceIdeal.S128x128 .f32) (b1 : FVec Ideal Cert.ReferenceIdeal.S128 .f32)
    (w2 : FVec Ideal Cert.ReferenceIdeal.S128x128 .f32) (b2 : FVec Ideal Cert.ReferenceIdeal.S128 .f32)
    (hx : ∀ i, ∃ y : ℝ, x i = (y : EReal)) (hw1 : ∀ i, ∃ y : ℝ, w1 i = (y : EReal)) (hb1 : ∀ i, ∃ y : ℝ, b1 i = (y : EReal))
    (hw2 : ∀ i, ∃ y : ℝ, w2 i = (y : EReal)) (hb2 : ∀ i, ∃ y : ℝ, b2 i = (y : EReal)) :
    kernelOut x ei w1 b1 w2 b2 = refOut x ei w1 b1 w2 b2 := by
  funext i
  obtain ⟨r, q, rfl⟩ : ∃ (r : Fin 100000) (q : Fin 128), i = ix2 r q := ⟨i 0, i 1, eq_ix2 i⟩
  choose x' hx' using hx
  choose w1' hw1' using hw1
  choose b1' hb1' using hb1
  choose w2' hw2' using hw2
  choose b2' hb2' using hb2
  choose dv' hdv' using dinv_real (dstOf ei)
  have ht : ∀ e (r : Fin 100000), rowOf (col (dstOf ei)) e = (r.val : Int) → rowOfList (dstOf ei) e = r :=
    fun e r h => tgtRow_of_id (dstOf ei) e r h
  rw [kernelOut_apply]
  unfold refOut
  rw [refLayer_apply]
  -- the first layer, as real numbers, in both forms
  have hK1 : ∀ (P : Fin 100000) (k : Fin 128),
      nodeForm (col (dstOf ei)) (rowOfList (srcOf ei)) (fun p => dinvOf (dstOf ei) (ix1 p))
          (fun p k => x (ix2 p k)) (fun k q => w1 (ix2 k q)) (fun q => b1 (ix1 q)) P k
        = ((layerReal (col (dstOf ei)) (rowOfList (srcOf ei)) (rowOfList (dstOf ei)) dv'
            (fun p k => x' (ix2 p k)) (fun k q => w1' (ix2 k q)) (fun q => b1' (ix1 q)) P k : ℝ) : EReal) :=
    fun P k => nodeForm_eq _ _ _ _ _ _ _ dv' _ _ _ hdv' (fun p k => hx' _) (fun k q => hw1' _) (fun q => hb1' _) ht P k
  have hR1 : ∀ (P : Fin 100000) (k : Fin 128),
      refLayer x w1 b1 (srcOf ei) (dstOf ei) (ix2 P k)
        = ((layerReal (col (dstOf ei)) (rowOfList (srcOf ei)) (rowOfList (dstOf ei)) dv'
            (fun p k => x' (ix2 p k)) (fun k q => w1' (ix2 k q)) (fun q => b1' (ix1 q)) P k : ℝ) : EReal) :=
    fun P k => (refLayer_apply x w1 b1 (srcOf ei) (dstOf ei) P k).trans
      (edgeForm_eq _ _ _ _ _ _ _ dv' _ _ _ hdv' (fun p k => hx' _) (fun k q => hw1' _) (fun q => hb1' _) P k)
  -- the second layer over them
  exact (nodeForm_eq _ _ _ _ _ _ _ dv' _ _ _ hdv' hK1 (fun k q => hw2' _) (fun q => hb2' _) ht r q).trans
    (edgeForm_eq _ _ _ _ _ _ _ dv' _ _ _ hdv' hR1 (fun k q => hw2' _) (fun q => hb2' _) r q).symm

end Cert.Bridge

end
-- ==== Proof.FiniteInputs.lean ====
/-
  The precondition read back: every float input holds real numbers.

  The precondition is the conjunction, over the five float inputs, of "all entries have |x| < +inf". On the extended
  reals |x| is max x (−x) and the pattern of +inf denotes ⊤; so |x| < ⊤ rules out both infinities and leaves a real.
-/
import proofs.«118110_j45586782880364_2_alg».proof.Pre_finite_inputs
import proofs.«118110_j45586782880364_2_alg».proof.Proof.Gen.Pre_finite_inputs
import Idealize.ShloMosaic.PureOps.Ideal
import Idealize.ShloMosaic.Lib.ValueIdx
import Idealize.ShloMosaic.Lib.Pipeline.Value
import Idealize.ShloMosaic.Lib.ReduceAll

noncomputable section

namespace Cert.FiniteInputs

open Cert.Pre_finite_inputs Cert.Pre_finite_inputs.Gen Idealize.ShloMosaic Idealize.ShloMosaic.ValueIdx

instance : Subsingleton S_.Idx := ⟨fun a b => funext fun d => d.elim0⟩

/-- The pattern of +inf denotes ⊤. -/
theorem ofBits_inf : Ideal.ofBits .f32 0x7F800000#32 = (⊤ : EReal) := by
  simp [Ideal.ofBits, Ideal.ieee]

/-- An extended real whose absolute value is below ⊤ is a real number. -/
theorem real_of_abs_lt_top (x : EReal) (h : max x (-x) < (⊤ : EReal)) : ∃ y : ℝ, x = (y : EReal) := by
  have h1 : x < ⊤ := lt_of_le_of_lt (le_max_left _ _) h
  have h2 : -x < ⊤ := lt_of_le_of_lt (le_max_right _ _) h
  induction x using EReal.rec with
  | bot => exact absurd h2 (by simp)
  | coe y => exact ⟨y, rfl⟩
  | top => exact absurd h1 (lt_irrefl _)

/-- One input's test, at an entry: the comparison that came out true says the entry is real. -/
theorem real_of_test {s : Shape} (hb : S_.BroadcastsInDim s (![] : Fin 0 → Fin s.rank)) (a : FVec Ideal s .f32) (i : s.Idx)
    (h : cmpf (F := Ideal) .olt (Host.absf a) (broadcastInDim s ![] hb (constant (F := Ideal) S_ .f32 0x7F800000#32)) i = 1#1) :
    ∃ y : ℝ, a i = (y : EReal) := by
  have h' : Ideal.cmp .olt (max (a i) (-(a i))) (broadcastInDim s ![] hb (constant (F := Ideal) S_ .f32 0x7F800000#32) i) = 1#1 := h
  rw [show broadcastInDim s ![] hb (constant (F := Ideal) S_ .f32 0x7F800000#32) i = Ideal.ofBits .f32 0x7F800000#32 from
    broadcastInDim_apply ![] hb _ i ix0 (fun a => a.elim0), ofBits_inf] at h'
  unfold Ideal.cmp at h'
  refine real_of_abs_lt_top (a i) ?_
  by_contra hn
  simp only [hn, decide_false] at h'
  exact absurd h' (by decide)

/-- THE PRECONDITION, READ BACK: all five float inputs hold real numbers. -/
theorem reals_of_pre (a0 : FVec Ideal S100000x128 .f32) (a1 : IVec S2x1600000 32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    (∀ i, ∃ y : ℝ, a0 i = (y : EReal)) ∧ (∀ i, ∃ y : ℝ, a2 i = (y : EReal)) ∧ (∀ i, ∃ y : ℝ, a3 i = (y : EReal))
      ∧ (∀ i, ∃ y : ℝ, a4 i = (y : EReal)) ∧ (∀ i, ∃ y : ℝ, a5 i = (y : EReal)) := by
  have h0 := congrFun h ix0
  dsimp only [fn, fn_part1] at h0
  obtain ⟨h0123, h5⟩ := IntOp.andi_eq_one.mp h0
  obtain ⟨h012, h4⟩ := IntOp.andi_eq_one.mp h0123
  obtain ⟨h01, h3⟩ := IntOp.andi_eq_one.mp h012
  obtain ⟨h00, h2⟩ := IntOp.andi_eq_one.mp h01
  exact ⟨fun i => real_of_test _ a0 i (Host.reduce_andi_all _ _ _ _ ix0 h00 i),
    fun i => real_of_test _ a2 i (Host.reduce_andi_all _ _ _ _ ix0 h2 i),
    fun i => real_of_test _ a3 i (Host.reduce_andi_all _ _ _ _ ix0 h3 i),
    fun i => real_of_test _ a4 i (Host.reduce_andi_all _ _ _ _ ix0 h4 i),
    fun i => real_of_test _ a5 i (Host.reduce_andi_all _ _ _ _ ix0 h5 i)⟩

end Cert.FiniteInputs

end
-- ==== Proof.lean ====
/-
  A two-layer graph convolution, kernel against reference, on the extended reals.

  The reference scales every edge's message by `dinv[src] · dinv[dst]` and sums the messages into their targets. The
  kernel scales each node's row by `dinv` once before the rows are gathered, sums the gathered rows into their
  targets, and scales each sum by the target's `dinv` afterwards — three kernels (product and pre-scale; post-scale,
  bias, clip, product and pre-scale; post-scale, bias, clip) with the gathers and sums between them on the host.
  The two agree because the common factor `dinv[r]` of the edges into `r` comes out of their sum: distributivity, which
  on the extended reals needs finite values — so the precondition (every float input finite) is used, together with
  the fact that a degree is a finite count, which makes `dinv` real.

  The frames of the two kernel programs are the generated ones; the reference's frame is its run with the result
  dropped. The ideal pass rewrote nothing, so `preserves` asks nothing. The algebraic claim: the kernel's run ends
  with its result at `kernelOut` of the arguments (Proof/KernelValue.lean), the reference's at `refOut`
  (Proof/RefValue.lean), and the two are one function of real inputs (Proof/Bridge.lean).
-/
import proofs.«118110_j45586782880364_2_alg».proof.Defs
import proofs.«118110_j45586782880364_2_alg».proof.Proof.Gen.Kernel
import proofs.«118110_j45586782880364_2_alg».proof.Proof.Gen.Kernel.Skeleton
import proofs.«118110_j45586782880364_2_alg».proof.Proof.Gen.Kernel.Launch
import proofs.«118110_j45586782880364_2_alg».proof.Proof.Gen.Kernel.Points
import proofs.«118110_j45586782880364_2_alg».proof.Proof.Gen.Kernel.Frame
import proofs.«118110_j45586782880364_2_alg».proof.Proof.Gen.KernelIdeal
import proofs.«118110_j45586782880364_2_alg».proof.Proof.Gen.KernelIdeal.Skeleton
import proofs.«118110_j45586782880364_2_alg».proof.Proof.Gen.KernelIdeal.Launch
import proofs.«118110_j45586782880364_2_alg».proof.Proof.Gen.KernelIdeal.Points
import proofs.«118110_j45586782880364_2_alg».proof.Proof.Gen.KernelIdeal.Frame
import proofs.«118110_j45586782880364_2_alg».proof.Proof.Gen.ReferenceIdeal
import proofs.«118110_j45586782880364_2_alg».proof.Proof.Gen.Pre_finite_inputs
import proofs.«118110_j45586782880364_2_alg».proof.Proof.Bridge
import proofs.«118110_j45586782880364_2_alg».proof.Proof.FiniteInputs
import Idealize.ShloMosaic.Adequacy
import Idealize.ShloMosaic.Init

noncomputable section

namespace Cert.Proof

open Idealize.ShloMosaic Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

/-- Both runs end with their results at one function of arguments that agree: the kernel's at `kernelOut`, the
    reference's at `refOut`, equal on the real inputs the precondition grants. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, h4, h5⟩ := Cert.FiniteInputs.reals_of_pre _ _ _ _ _ _ (hpre c)
  rw [Cert.ReferenceIdeal.RefValue.res_eq, (hagree c).1, (hagree c).2.1, (hagree c).2.2.1, (hagree c).2.2.2.1,
    (hagree c).2.2.2.2.1, (hagree c).2.2.2.2.2]
  exact (Cert.Bridge.kernel_eq_ref _ _ _ _ _ _ h0 h2 h3 h4 h5).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
